-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x4096 : Shape := ⟨2, ![2048, 4096]⟩
abbrev S256x4096 : Shape := ⟨2, ![256, 4096]⟩
abbrev S1x256 : Shape := ⟨2, ![1, 256]⟩
abbrev S2048x256 : Shape := ⟨2, ![2048, 256]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S8192x4096, .f32⟩
  | .local _ .vmem, ⟨0, _⟩ => ⟨S2048x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S1x256, .f32⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096_S1x4096 : S4096.ShapeCasts S1x4096
  inb_S2048x4096_S2048x4096_0_0 : ∀ a, (![0, 0] : Fin 2 → Nat) a + S2048x4096.size a ≤ S2048x4096.size a
  h_S2048x4096 : 0 < S2048x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .f32 = 32 ∨ (Rect.block (s := S8192x4096) S2048x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x4096.size a
  hwx0_4 : ∀ i : grid0.Coords, EltTy.bits .f32 = 32 ∨ (Rect.block (s := S8192x4096) S2048x256.size (cc0_transform_4 i) (hinb0_4 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_arg0) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.MaskedAffine.lean ====
/-
  The masked affine map on the extended reals, entry by entry.

  For a batch `x` of 8192 rows of 4096 input features, a 4096 × 4096 weight matrix `W`, a mask `M` of the same
  shape and a bias `b` of 4096 output features, the layer computes `x (W ∘ M)ᵀ + b`: entry `(r, o)` is the sum over
  the input features `k` of `x[r, k] · (W[o, k] · M[o, k])`, plus `b[o]`. Both programs of this certificate compute
  exactly this sum of products and this one addition, so nothing but the definition is needed here: no law of the
  extended reals beyond reading the same expression twice.
-/
import Idealize.ShloMosaic.PureOps.Ideal
import Idealize.ShloMosaic.Lib.ValueIdx

noncomputable section

open scoped BigOperators

namespace Cert.MaskedAffine

open Idealize.ShloMosaic Idealize.ShloMosaic.ValueIdx

/-- Entry `(r, o)` of `x (W ∘ M)ᵀ + b`: row `r` of `x` against row `o` of the masked weights, plus `b[o]`. -/
def entry (x : FVec Ideal ⟨2, ![8192, 4096]⟩ .f32) (w mk : FVec Ideal ⟨2, ![4096, 4096]⟩ .f32)
    (b : FVec Ideal ⟨1, ![4096]⟩ .f32) (r : Fin 8192) (o : Fin 4096) : EReal :=
  (∑ k : Fin 4096, x (ix2 r k) * (w (ix2 o k) * mk (ix2 o k))) + b (ix1 o)

/-- The whole result array `x (W ∘ M)ᵀ + b`, as a function of the four argument arrays. -/
def out (x : FVec Ideal ⟨2, ![8192, 4096]⟩ .f32) (w mk : FVec Ideal ⟨2, ![4096, 4096]⟩ .f32)
    (b : FVec Ideal ⟨1, ![4096]⟩ .f32) : FVec Ideal ⟨2, ![8192, 4096]⟩ .f32 :=
  fun i => entry x w mk b ⟨(i 0).val, (i 0).isLt⟩ ⟨(i 1).val, (i 1).isLt⟩

/-- At an index given by its two coordinates the array is the entry. -/
theorem out_ix2 (x : FVec Ideal ⟨2, ![8192, 4096]⟩ .f32) (w mk : FVec Ideal ⟨2, ![4096, 4096]⟩ .f32)
    (b : FVec Ideal ⟨1, ![4096]⟩ .f32) (r : Fin 8192) (o : Fin 4096) :
    out x w mk b (ix2 r o) = entry x w mk b r o := rfl

end Cert.MaskedAffine

end
-- ==== Proof.ReferenceAffine.lean ====
/-
  The reference computes the masked affine map.

  The reference multiplies the weights by the mask entry by entry, contracts the batch with the product over the
  input-feature axis of both, and adds the bias broadcast along the batch axis. Read at an index `(r, o)` that is the
  sum over `k` of `x[r, k] · (W[o, k] · M[o, k])` plus `b[o]`: the entry of `Cert.MaskedAffine.out`.
-/
import proofs.«153913_j69827578298456_1_alg».proof.Proof.Gen.ReferenceIdeal.Read
import proofs.«153913_j69827578298456_1_alg».proof.Proof.MaskedAffine

noncomputable section

open scoped BigOperators

namespace Cert.ReferenceIdeal.Affine

open Cert.ReferenceIdeal Cert.ReferenceIdeal.Read Idealize.ShloMosaic Idealize.ShloMosaic.ValueIdx

/-- The left operand of the contraction at output `(r, o)` and feature `k` is read at `(r, k)`. -/
theorem lidx_eq (r : Fin 8192) (o : Fin 4096) (k : Fin 4096) : lidx_main_v1 (ix2 r o) k = ix2 r k :=
  funext fun a => Fin.ext (by match a with | ⟨0, _⟩ => rfl | ⟨1, _⟩ => rfl)

/-- The right operand of the contraction at output `(r, o)` and feature `k` is read at `(o, k)`. -/
theorem ridx_eq (r : Fin 8192) (o : Fin 4096) (k : Fin 4096) : ridx_main_v1 (ix2 r o) k = ix2 o k :=
  funext fun a => Fin.ext (by match a with | ⟨0, _⟩ => rfl | ⟨1, _⟩ => rfl)

/-- The bias broadcast twice, to one row and then along the batch, is read at output `(r, o)` at `o`. -/
theorem bidx_eq (r : Fin 8192) (o : Fin 4096) : idx_main_v2 (idx_main_v3 (ix2 r o)) = ix1 o :=
  funext fun a => Fin.ext (by match a with | ⟨0, _⟩ => rfl)

/-- The reference's result, as a function of its four arguments, is the masked affine map of them. -/
theorem result_eq (x0 : FVec Ideal S8192x4096 .f32) (x1 x3 : FVec Ideal S4096x4096 .f32) (x2 : FVec Ideal S4096 .f32) :
    val_main_v4 (F := Ideal) x0 x1 x2 x3 = Cert.MaskedAffine.out x0 x1 x3 x2 := by
  funext i
  obtain ⟨r, o, rfl⟩ : ∃ (r : Fin 8192) (o : Fin 4096), i = ix2 r o := ⟨i 0, i 1, eq_ix2 i⟩
  rw [Cert.MaskedAffine.out_ix2, val_main_v4_apply, val_main_v1_apply, val_main_v3_apply, val_main_v2_apply]
  simp only [lidx_eq, ridx_eq, bidx_eq, val_main_v0_apply]
  rfl

end Cert.ReferenceIdeal.Affine

end
-- ==== Proof.TileProduct.lean ====
/-
  What the kernel body computes from its four loaded blocks, entry by entry.

  At one grid point the body holds 2048 rows of the batch (all 4096 input features), 256 rows of the weights and of
  the mask (the 256 output features of this tile, all 4096 input features) and the 256 matching bias entries as one
  row. It multiplies weights and mask entry by entry, contracts the batch rows with the product over the input-feature
  axis into a zero accumulator, and adds the bias row to every batch row. The two changes of float format in between
  are the identity on extended reals. So entry `(p, q)` of the tile is the sum over `k` of
  `x[p, k] · (W[q, k] · M[q, k])`, plus `b[0, q]`.
-/
import proofs.«153913_j69827578298456_1_alg».proof.Proof.Gen.KernelIdeal.Skeleton
import proofs.«153913_j69827578298456_1_alg».proof.Proof.MaskedAffine
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The contraction's dimension numbers: axis 1 of both operands is summed, axis 0 of each is kept. -/
abbrev dims : DotDims S2048x4096 S256x4096 S2048x256 := dot_S2048x4096_S256x4096_S2048x256_1_1_0_0_n_n

theorem lhs_kept (j : S2048x256.Idx) (u : dims.contr.Idx) : (dims.lhsIdx j u 0).val = (j 0).val := by
  unfold DotDims.lhsIdx
  rw [dif_neg (show ¬(0 : Fin S2048x4096.rank) ∈ dims.lhsBatch by decide),
    dif_pos (show (0 : Fin S2048x4096.rank) ∈ dims.lhsNonContracting by decide)]
  rfl

theorem lhs_summed (j : S2048x256.Idx) (u : dims.contr.Idx) : (dims.lhsIdx j u 1).val = (u ⟨0, by decide⟩).val :=
  dims.lhsIdx_val_of_single rfl j u

theorem rhs_kept (j : S2048x256.Idx) (u : dims.contr.Idx) : (dims.rhsIdx j u 0).val = (j 1).val := by
  unfold DotDims.rhsIdx
  rw [dif_neg (show ¬(0 : Fin S256x4096.rank) ∈ dims.rhsBatch by decide),
    dif_pos (show (0 : Fin S256x4096.rank) ∈ dims.rhsNonContracting by decide)]
  rfl

theorem rhs_summed (j : S2048x256.Idx) (u : dims.contr.Idx) : (dims.rhsIdx j u 1).val = (u ⟨0, by decide⟩).val :=
  dims.rhsIdx_val_of_single rfl j u

/-- The matrix product into a zero accumulator, at `(p, q)`: row `p` of the left operand against row `q` of the
    right one, summed over the 4096 shared columns. -/
theorem product_apply (a : FVec Ideal S2048x4096 .bf16) (b : FVec Ideal S256x4096 .bf16) (p : Fin 2048) (q : Fin 256) :
    matmul dims none a b (constant (F := Ideal) S2048x256 .f32 0x00000000#32) (ix2 p q)
      = ∑ k : Fin 4096, a (ix2 p k) * b (ix2 q k) := by
  simp only [matmul]
  rw [Ideal.matmul_constant_zero_apply, ← Equiv.sum_comp (contrEquiv1 dims 4096 rfl rfl).symm]
  refine Finset.sum_congr rfl fun k _ => ?_
  have hk := contrEquiv1_symm_val dims 4096 rfl rfl k
  have el : dims.lhsIdx (ix2 p q) ((contrEquiv1 dims 4096 rfl rfl).symm k) = ix2 p k := funext fun ax => Fin.ext (by
    match ax with
    | ⟨0, _⟩ => exact lhs_kept _ _
    | ⟨1, _⟩ => exact (lhs_summed _ _).trans hk)
  have er : dims.rhsIdx (ix2 p q) ((contrEquiv1 dims 4096 rfl rfl).symm k) = ix2 q k := funext fun ax => Fin.ext (by
    match ax with
    | ⟨0, _⟩ => exact rhs_kept _ _
    | ⟨1, _⟩ => exact (rhs_summed _ _).trans hk)
  rw [el, er]

/-- The body's stored value at `(p, q)`, from the four loaded blocks. -/
theorem payload_apply (x0 : Vec Ideal S2048x4096 .f32) (x1 x2 : Vec Ideal S256x4096 .f32) (x3 : Vec Ideal S1x256 .f32)
    (p : Fin 2048) (q : Fin 256) :
    k0_pay1 (F := Ideal) x0 x1 x2 x3 (ix2 p q)
      = (∑ k : Fin 4096, x0 (ix2 p k) * (x1 (ix2 q k) * x2 (ix2 q k))) + x3 (ix2 (0 : Fin 1) q) := by
  unfold k0_pay1
  rw [addf_apply, product_apply, shapeCast_self, broadcastTo_1b_ab_apply]
  rfl

/-- A tile of the masked affine map. Suppose the four loaded blocks are rows `R, …, R + 2047` of the batch `X`, rows
    `O, …, O + 255` of the weights `W` and of the mask `M`, and entries `O, …, O + 255` of the bias `B`. Then the
    body's stored value at `(p, q)` is entry `(R + p, O + q)` of `X (W ∘ M)ᵀ + B`: the sum runs over all 4096 input
    features in both, so a tile needs nothing from outside its own rows. -/
theorem payload_eq_entry (X : FVec Ideal ⟨2, ![8192, 4096]⟩ .f32) (W M : FVec Ideal ⟨2, ![4096, 4096]⟩ .f32)
    (B : FVec Ideal ⟨1, ![4096]⟩ .f32)
    (x0 : Vec Ideal S2048x4096 .f32) (x1 x2 : Vec Ideal S256x4096 .f32) (x3 : Vec Ideal S1x256 .f32)
    (R O : Nat) (hR : R + 2048 ≤ 8192) (hO : O + 256 ≤ 4096)
    (h0 : ∀ (p : Fin 2048) (k : Fin 4096), x0 (ix2 p k) = X (ix2 (⟨R + p.val, by have := p.isLt; omega⟩ : Fin 8192) k))
    (h1 : ∀ (q : Fin 256) (k : Fin 4096), x1 (ix2 q k) = W (ix2 (⟨O + q.val, by have := q.isLt; omega⟩ : Fin 4096) k))
    (h2 : ∀ (q : Fin 256) (k : Fin 4096), x2 (ix2 q k) = M (ix2 (⟨O + q.val, by have := q.isLt; omega⟩ : Fin 4096) k))
    (h3 : ∀ q : Fin 256, x3 (ix2 (0 : Fin 1) q) = B (ix1 (⟨O + q.val, by have := q.isLt; omega⟩ : Fin 4096)))
    (p : Fin 2048) (q : Fin 256) :
    k0_pay1 (F := Ideal) x0 x1 x2 x3 (ix2 p q)
      = Cert.MaskedAffine.entry X W M B ⟨R + p.val, by have := p.isLt; omega⟩ ⟨O + q.val, by have := q.isLt; omega⟩ := by
  rw [payload_apply]
  unfold Cert.MaskedAffine.entry
  simp only [h0, h1, h2, h3]

end Cert.KernelIdeal.Tile

end
-- ==== Proof.BiasRow.lean ====
/-
  The bias as the kernel's region finds it.

  Before the region the host reshapes the bias of 4096 entries into one row of 4096 columns; the region's fourth
  window reads that row. Entry `(0, o)` of the row is entry `o` of the bias.
-/
import proofs.«153913_j69827578298456_1_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.Bias

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- When the region is entered, the one-row buffer holds the bias argument recast to one row. -/
theorem row_eq (c : Dev nD) :
    (V m c main_v0 : S1x4096.Idx → EReal)
      = shapeCast S1x4096 (m ((c : Thread nD τ).loc main_arg2) : S4096.Idx → EReal) shapeCasts_S4096_S1x4096 := by
  dsimp only [Gen.V, Gen.hostOps0]
  after_results
  rfl

/-- Its entry in column `o` is the bias's entry `o`. -/
theorem row_apply (c : Dev nD) (u : Fin 1) (o : Fin 4096) :
    (V m c main_v0 : S1x4096.Idx → EReal) (ix2 u o) = (m ((c : Thread nD τ).loc main_arg2) : S4096.Idx → EReal) (ix1 o) := by
  rw [row_eq]
  exact shapeCast_a_1a_apply _ _ u o

end Cert.KernelIdeal.Bias

end
-- ==== Proof.WholeArray.lean ====
/-
  The kernel's result array is the masked affine map of its arguments.

  The grid has 4 × 16 points. Point `(i, j)` loads rows `2048 i, …, 2048 i + 2047` of the batch, rows
  `256 j, …, 256 j + 255` of the weights and of the mask, columns `256 j, …, 256 j + 255` of the one-row bias, and
  writes the 2048 × 256 tile at block `(i, j)` of the result. By `Tile.payload_eq_entry` that tile is the
  corresponding block of `x (W ∘ M)ᵀ + b`; the 64 tiles cover the 8192 × 4096 result (entry `(r, o)` lies in the tile
  of point `(r / 2048, o / 256)`), so the whole array is `x (W ∘ M)ᵀ + b`.
-/
import proofs.«153913_j69827578298456_1_alg».proof.Proof.Gen.KernelIdeal.Value
import proofs.«153913_j69827578298456_1_alg».proof.Proof.MaskedAffine
import proofs.«153913_j69827578298456_1_alg».proof.Proof.TileProduct
import proofs.«153913_j69827578298456_1_alg».proof.Proof.BiasRow
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The masked affine map of the four argument arrays as launched. -/
abbrev target (c : Dev nD) : S8192x4096.Idx → EReal :=
  Cert.MaskedAffine.out (m ((c : Thread nD τ).loc main_arg0)) (m ((c : Thread nD τ).loc main_arg1))
    (m ((c : Thread nD τ).loc main_arg3)) (m ((c : Thread nD τ).loc main_arg2))

theorem zero_offsets : (![0, 0] : Fin 2 → Nat) = fun _ => 0 := funext fun a => by fin_cases a <;> rfl

/-- The index maps, decided over the 64 grid points: the batch block moves with the tile's row block, the weight,
    mask and bias blocks with the tile's column block, and the tile's block indices stay below 4 and 16. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 15 :=
  (by decide +kernel : ∀ t : Fin grid0.N, _)

/-- Every block of the result is some point's. -/
theorem block_onto : ∀ (q0 : Fin 4) (q1 : Fin 16), ∃ t : Fin cfg0.N, win0_4.index t = ![q0.val, q1.val] :=
  (by decide +kernel : ∀ (q0 : Fin 4) (q1 : Fin 16), ∃ t : Fin grid0.N, win0_4.index t = ![q0.val, q1.val])

/-! ## Each input block is rows of its argument -/

/-- The batch block at point `t` holds rows `R + p` of the batch, `R` the block's first row. -/
theorem batch_block (c : Dev nD) (t : Fin cfg0.N) (R : Nat) (hR : R + 2048 ≤ 8192)
    (e0 : win0_0.index t (0 : Fin 2) * 2048 = R) (e1 : win0_0.index t (1 : Fin 2) = 0) (p : Fin 2048) (k : Fin 4096) :
    (iblk m c 0 t : Vec Ideal S2048x4096 .f32) (ix2 p k)
      = (m ((c : Thread nD τ).loc main_arg0) : S8192x4096.Idx → EReal) (ix2 (⟨R + p.val, by have := p.isLt; omega⟩ : Fin 8192) k) := by
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = R + p.val; omega
  | ⟨1, _⟩ => show win0_0.index t (1 : Fin 2) * 4096 + 1 * k.val = k.val; omega

/-- The weight block at point `t` holds rows `O + q` of the weights, `O` the block's first row. -/
theorem weight_block (c : Dev nD) (t : Fin cfg0.N) (O : Nat) (hO : O + 256 ≤ 4096)
    (e0 : win0_1.index t (0 : Fin 2) * 256 = O) (e1 : win0_1.index t (1 : Fin 2) = 0) (q : Fin 256) (k : Fin 4096) :
    (iblk m c 1 t : Vec Ideal S256x4096 .f32) (ix2 q k)
      = (m ((c : Thread nD τ).loc main_arg1) : S4096x4096.Idx → EReal) (ix2 (⟨O + q.val, by have := q.isLt; omega⟩ : Fin 4096) k) := by
  unfold iblk
  rw [View.read_apply]
  show V m c main_arg1 _ = _
  rw [V_main_arg1]
  refine congrArg _ (funext fun a => Fin.ext ?_)
  match a with
  | ⟨0, _⟩ => show win0_1.index t (0 : Fin 2) * 256 + 1 * q.val = O + q.val; omega
  | ⟨1, _⟩ => show win0_1.index t (1 : Fin 2) * 4096 + 1 * k.val = k.val; omega

/-- The mask block at point `t` holds rows `O + q` of the mask. -/
theorem mask_block (c : Dev nD) (t : Fin cfg0.N) (O : Nat) (hO : O + 256 ≤ 4096)
    (e0 : win0_2.index t (0 : Fin 2) * 256 = O) (e1 : win0_2.index t (1 : Fin 2) = 0) (q : Fin 256) (k : Fin 4096) :
    (iblk m c 2 t : Vec Ideal S256x4096 .f32) (ix2 q k)
      = (m ((c : Thread nD τ).loc main_arg3) : S4096x4096.Idx → EReal) (ix2 (⟨O + q.val, by have := q.isLt; omega⟩ : Fin 4096) k) := by
  unfold iblk
  rw [View.read_apply]
  show V m c main_arg3 _ = _
  rw [V_main_arg3]
  refine congrArg _ (funext fun a => Fin.ext ?_)
  match a with
  | ⟨0, _⟩ => show win0_2.index t (0 : Fin 2) * 256 + 1 * q.val = O + q.val; omega
  | ⟨1, _⟩ => show win0_2.index t (1 : Fin 2) * 4096 + 1 * k.val = k.val; omega

/-- The bias block at point `t` holds entries `O + q` of the bias, read through the one-row buffer. -/
theorem bias_block (c : Dev nD) (t : Fin cfg0.N) (O : Nat) (hO : O + 256 ≤ 4096)
    (e0 : win0_3.index t (0 : Fin 2) = 0) (e1 : win0_3.index t (1 : Fin 2) * 256 = O) (q : Fin 256) :
    (iblk m c 3 t : Vec Ideal S1x256 .f32) (ix2 (0 : Fin 1) q)
      = (m ((c : Thread nD τ).loc main_arg2) : S4096.Idx → EReal) (ix1 (⟨O + q.val, by have := q.isLt; omega⟩ : Fin 4096)) := by
  unfold iblk
  rw [View.read_apply]
  show (V m c main_v0 : S1x4096.Idx → EReal) _ = _
  refine Eq.trans (congrArg _ (funext fun a => Fin.ext ?_))
    (Bias.row_apply m c (0 : Fin 1) (⟨O + q.val, by have := q.isLt; omega⟩ : Fin 4096))
  match a with
  | ⟨0, _⟩ => show win0_3.index t (0 : Fin 2) * 1 + 1 * 0 = 0; omega
  | ⟨1, _⟩ => show win0_3.index t (1 : Fin 2) * 256 + 1 * q.val = O + q.val; omega

/-! ## What a point writes back -/

/-- A function on the tile's indices is determined by its values at the pairs of coordinates. -/
theorem tile_ext {α : Type} (f g : S2048x256.Idx → α) (h : ∀ (p : Fin 2048) (q : Fin 256), f (ix2 p q) = g (ix2 p q)) : f = g := by
  funext j
  obtain ⟨p, q, rfl⟩ : ∃ (p : Fin 2048) (q : Fin 256), j = ix2 p q := ⟨j 0, j 1, eq_ix2 j⟩
  exact h p q

/-- Point `t` writes back block `t` of the masked affine map of the arguments. -/
theorem flushed_eq (c : Dev nD) (t : Fin cfg0.N) :
    (dats m 0 c).flushed 4 t = ((cfg0.win 4).blk t).view.read (Elt Ideal) (target m c) := by
  rw [Cert.KernelIdeal.Value.flushed4]
  unfold out0_4
  rw [View.canon_unit_zero zero_offsets]
  simp only [View.ld_unit_zero (S := S2048x4096) zero_offsets, View.ld_unit_zero (S := S256x4096) zero_offsets,
    View.ld_unit_zero (S := S1x256) zero_offsets]
  obtain ⟨a0, a1, b0, b1, c0, c1, d0, d1, hi, hj⟩ := block_indices t
  show (k0_pay1 (iblk m c 0 t) (iblk m c 1 t) (iblk m c 2 t) (iblk m c 3 t) : S2048x256.Idx → EReal)
    = fun y => target m c (((cfg0.win 4).blk t).view.emb y)
  refine tile_ext _ _ fun p q => ?_
  have hp := p.isLt
  have hq := q.isLt
  have hR : win0_4.index t (0 : Fin 2) * 2048 + 2048 ≤ 8192 := by omega
  have hO : win0_4.index t (1 : Fin 2) * 256 + 256 ≤ 4096 := by omega
  have he : ((cfg0.win 4).blk t).view.emb (ix2 p q)
      = ix2 (⟨win0_4.index t (0 : Fin 2) * 2048 + p.val, by omega⟩ : Fin 8192) (⟨win0_4.index t (1 : Fin 2) * 256 + q.val, by omega⟩ : Fin 4096) :=
    funext fun a => Fin.ext (by
      match a with
      | ⟨0, _⟩ => show win0_4.index t (0 : Fin 2) * 2048 + 1 * p.val = win0_4.index t (0 : Fin 2) * 2048 + p.val; omega
      | ⟨1, _⟩ => show win0_4.index t (1 : Fin 2) * 256 + 1 * q.val = win0_4.index t (1 : Fin 2) * 256 + q.val; omega)
  show k0_pay1 (F := Ideal) (iblk m c 0 t) (iblk m c 1 t) (iblk m c 2 t) (iblk m c 3 t) (ix2 p q)
    = target m c (((cfg0.win 4).blk t).view.emb (ix2 p q))
  rw [he]
  unfold target
  rw [Cert.MaskedAffine.out_ix2]
  exact Tile.payload_eq_entry (m ((c : Thread nD τ).loc main_arg0)) (m ((c : Thread nD τ).loc main_arg1))
    (m ((c : Thread nD τ).loc main_arg3)) (m ((c : Thread nD τ).loc main_arg2))
    (iblk m c 0 t) (iblk m c 1 t) (iblk m c 2 t) (iblk m c 3 t)
    (win0_4.index t (0 : Fin 2) * 2048) (win0_4.index t (1 : Fin 2) * 256) hR hO
    (batch_block m c t (win0_4.index t (0 : Fin 2) * 2048) hR (by rw [a0]) a1)
    (weight_block m c t (win0_4.index t (1 : Fin 2) * 256) hO (by rw [b0]) b1)
    (mask_block m c t (win0_4.index t (1 : Fin 2) * 256) hO (by rw [c0]) c1)
    (bias_block m c t (win0_4.index t (1 : Fin 2) * 256) hO d0 (by rw [d1]))
    p q

/-! ## The tiles cover the result -/

/-- An index of the result is in point `t`'s tile iff each coordinate is in the tile's range on its axis. -/
theorem mem_tile (t : Fin cfg0.N) (i : S8192x4096.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v1).slice (win0_4.rect t)).set ↔ _
  rw [View.set_slice_whole, Rect.mem_set_unit]
  exact Iff.rfl

/-- Entry `(r, o)` of the result lies in the tile of the point with block indices `(r / 2048, o / 256)`. -/
theorem covered (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := block_onto ⟨(i 0).val / 2048, by omega⟩ ⟨(i 1).val / 256, by omega⟩
  have q0 : win0_4.index t (0 : Fin 2) = (i 0).val / 2048 := congrFun ht 0
  have q1 : win0_4.index t (1 : Fin 2) = (i 1).val / 256 := congrFun ht 1
  refine ⟨t, flush0_4 t, ?_⟩
  rw [mem_tile]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-- After the run the result array is the masked affine map of the arguments. -/
theorem final (c : Dev nD) : (dats m 0 c).arrAt 4 cfg0.N = target m c :=
  (dats m 0 c).arrAt_eq_of_cover 4 (target m c) (fun t _ => flushed_eq m c t) covered

/-- The kernel's run, read: the result at the masked affine map of the arguments, the arguments unchanged. -/
theorem run : θ_run defs (onTc (τ := τ) (main (F := Ideal))) ⟨m, fun _ => 0, ρ⟩ fun r => ∀ c : Dev nD,
      r.2.mem ((c : Thread nD τ).loc main_v1) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.lean ====
/-
  A masked linear layer: `out = x (W ∘ M)ᵀ + b` for a batch `x` of 8192 rows of 4096 features, 4096 × 4096 weights
  `W` and mask `M`, and a bias `b` of 4096 entries.

  The kernel tiles the result into 4 × 16 blocks of 2048 × 256 entries; each grid point multiplies its 256 weight
  rows by the mask, contracts its 2048 batch rows with them over all 4096 features into a zero accumulator, and adds
  its 256 bias entries to every row. The reference masks the whole weight matrix, contracts once, and adds the bias
  broadcast over the batch. On the extended reals a change of float format is the identity and a matrix product is the
  plain sum of products, so both compute, at entry `(r, o)`, the sum over `k` of `x[r, k] · (W[o, k] · M[o, k])` plus
  `b[o]` (`Cert.MaskedAffine.out`): the same products, summed over the same index set, with the same single
  addition. No law of the extended reals that could fail at an infinity is used, and the finiteness of the inputs is
  never opened.

  `Proof/MaskedAffine` states that function; `Proof/ReferenceAffine` reads the reference's result as it;
  `Proof/TileProduct` reads the kernel body's stored tile entry by entry; `Proof/BiasRow` reads the bias through the
  host's reshape to one row; `Proof/WholeArray` puts the 64 tiles together. The idealization rewrote nothing, so
  the kernel and its idealization are one text and that conjunct holds trivially.
-/
import proofs.«153913_j69827578298456_1_alg».proof.Defs
import proofs.«153913_j69827578298456_1_alg».proof.Proof.Gen.Kernel
import proofs.«153913_j69827578298456_1_alg».proof.Proof.Gen.Kernel.Skeleton
import proofs.«153913_j69827578298456_1_alg».proof.Proof.Gen.Kernel.Launch
import proofs.«153913_j69827578298456_1_alg».proof.Proof.Gen.Kernel.Points
import proofs.«153913_j69827578298456_1_alg».proof.Proof.Gen.Kernel.Frame
import proofs.«153913_j69827578298456_1_alg».proof.Proof.Gen.KernelIdeal
import proofs.«153913_j69827578298456_1_alg».proof.Proof.Gen.KernelIdeal.Skeleton
import proofs.«153913_j69827578298456_1_alg».proof.Proof.Gen.KernelIdeal.Launch
import proofs.«153913_j69827578298456_1_alg».proof.Proof.Gen.KernelIdeal.Points
import proofs.«153913_j69827578298456_1_alg».proof.Proof.Gen.KernelIdeal.Frame
import proofs.«153913_j69827578298456_1_alg».proof.Proof.Gen.ReferenceIdeal
import proofs.«153913_j69827578298456_1_alg».proof.Proof.Gen.Pre_finite_inputs
import proofs.«153913_j69827578298456_1_alg».proof.Proof.Gen.KernelIdeal.Value
import proofs.«153913_j69827578298456_1_alg».proof.Proof.Gen.ReferenceIdeal.Run
import proofs.«153913_j69827578298456_1_alg».proof.Proof.Gen.ReferenceIdeal.Read
import proofs.«153913_j69827578298456_1_alg».proof.Proof.ReferenceAffine
import proofs.«153913_j69827578298456_1_alg».proof.Proof.WholeArray
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's both end at
    `x (W ∘ M)ᵀ + b` of those arguments. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Affine.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
